-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v94)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v94) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x7 : Shape := ⟨2, ![16, 7]⟩
abbrev S7 : Shape := ⟨1, ![7]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x7 : S_.BroadcastsInDim S16x7 (![] : Fin 0 → Fin S16x7.rank)
  reducesTo_S16x7_S_d0_1 : S16x7.ReducesTo [0, 1] S_
  bcast_S_S7 : S_.BroadcastsInDim S7 (![] : Fin 0 → Fin S7.rank)
  reducesTo_S7_S_d0 : S7.ReducesTo [0] S_

variable [Facts]

def fn_part1 {F : FTy → Type} [FloatOps F] (main_arg5 : FVec F S7 .f32) (main_v13 : IVec S_ 1) (main_v16 : IVec S16x7 1) : IVec S_ 1 :=
  let main_c_5 : IVec S_ 1 := constantI S_ 1 1#1
  let main_v17 : IVec S_ 1 := (fun x v => Host.reduce IntOp.andi x v reducesTo_S16x7_S_d0_1 h_S_) main_v16 main_c_5
  let main_v18 : IVec S_ 1 := andi main_v13 main_v17
  let main_v19 : FVec F S7 .f32 := Host.absf main_arg5
  let main_cst_6 : FVec F S_ .f32 := constant S_ .f32 0x7F800000#32
  let main_v20 : FVec F S7 .f32 := broadcastInDim S7 ![] bcast_S_S7 main_cst_6
  let main_v21 : IVec S7 1 := cmpf .olt main_v19 main_v20
  let main_c_7 : IVec S_ 1 := constantI S_ 1 1#1
  let main_v22 : IVec S_ 1 := (fun x v => Host.reduce IntOp.andi x v reducesTo_S7_S_d0 h_S_) main_v21 main_c_7
  let main_v23 : IVec S_ 1 := andi main_v18 main_v22
  main_v23

def fn {F : FTy → Type} [FloatOps F] (main_arg0 : FVec F S100000x512 .f32) (main_arg1 : IVec S2x3200000 32) (main_arg2 : FVec F S512x16 .f32) (main_arg3 : FVec F S16 .f32) (main_arg4 : FVec F S16x7 .f32) (main_arg5 : FVec F S7 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x16 .f32 := Host.absf main_arg2
  let main_cst_0 : FVec F S_ .f32 := constant S_ .f32 0x7F800000#32
  let main_v5 : FVec F S512x16 .f32 := broadcastInDim S512x16 ![] bcast_S_S512x16 main_cst_0
  let main_v6 : IVec S512x16 1 := cmpf .olt main_v4 main_v5
  let main_c_1 : IVec S_ 1 := constantI S_ 1 1#1
  let main_v7 : IVec S_ 1 := (fun x v => Host.reduce IntOp.andi x v reducesTo_S512x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x7 .f32 := Host.absf main_arg4
  let main_cst_4 : FVec F S_ .f32 := constant S_ .f32 0x7F800000#32
  let main_v15 : FVec F S16x7 .f32 := broadcastInDim S16x7 ![] bcast_S_S16x7 main_cst_4
  let main_v16 : IVec S16x7 1 := cmpf .olt main_v14 main_v15
  fn_part1 (F := F) main_arg5 main_v13 main_v16
-- ==== Kernel.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x7 : Shape := ⟨2, ![16, 7]⟩
abbrev S7 : Shape := ⟨1, ![7]⟩
abbrev S100000x16 : Shape := ⟨2, ![100000, 16]⟩
abbrev S5000x512 : Shape := ⟨2, ![5000, 512]⟩
abbrev S5000x16 : Shape := ⟨2, ![5000, 16]⟩
abbrev S1x3200000 : Shape := ⟨2, ![1, 3200000]⟩
abbrev S3200000 : Shape := ⟨1, ![3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S3300000x16 : Shape := ⟨2, ![3300000, 16]⟩
abbrev S1x16 : Shape := ⟨2, ![1, 16]⟩
abbrev S100000x7 : Shape := ⟨2, ![100000, 7]⟩
abbrev S5000x7 : Shape := ⟨2, ![5000, 7]⟩
abbrev S3300000x7 : Shape := ⟨2, ![3300000, 7]⟩
abbrev S1x7 : Shape := ⟨2, ![1, 7]⟩

abbrev nBuf : Space → Nat
  | .hbm => 129
  | .vmem => 10
  | .smem => 0
  | _ => 0

abbrev hbmTy0_0 (i : Nat) : BufTy := match i % 128 with
  | 0 => ⟨S100000x512, .f32⟩
  | 1 => ⟨S2x3200000, .i32⟩
  | 2 => ⟨S512x16, .f32⟩
  | 3 => ⟨S16, .f32⟩
  | 4 => ⟨S16x7, .f32⟩
  | 5 => ⟨S7, .f32⟩
  | 6 => ⟨S100000x16, .f32⟩
  | 7 => ⟨S1x3200000, .i32⟩
  | 8 => ⟨S3200000, .i32⟩
  | 9 => ⟨S1x3200000, .i32⟩
  | 10 => ⟨S3200000, .i32⟩
  | 11 => ⟨S100000, .i32⟩
  | 12 => ⟨S3300000, .i32⟩
  | 13 => ⟨S3300000, .i32⟩
  | 14 => ⟨S_, .f32⟩
  | 15 => ⟨S3300000, .f32⟩
  | 16 => ⟨S_, .f32⟩
  | 17 => ⟨S100000, .f32⟩
  | 18 => ⟨S3300000x1, .i32⟩
  | 19 => ⟨S100000, .f32⟩
  | 20 => ⟨S_, .f32⟩
  | 21 => ⟨S100000, .f32⟩
  | 22 => ⟨S100000, .i1⟩
  | 23 => ⟨S100000, .f32⟩
  | 24 => ⟨S_, .f32⟩
  | 25 => ⟨S_, .f32⟩
  | 26 => ⟨S100000, .f32⟩
  | 27 => ⟨S100000, .f32⟩
  | 28 => ⟨S_, .i32⟩
  | 29 => ⟨S3300000, .i32⟩
  | 30 => ⟨S3300000, .i1⟩
  | 31 => ⟨S_, .i32⟩
  | 32 => ⟨S3300000, .i32⟩
  | 33 => ⟨S3300000, .i32⟩
  | 34 => ⟨S3300000, .i32⟩
  | 35 => ⟨S3300000x1, .i32⟩
  | 36 => ⟨S3300000, .f32⟩
  | 37 => ⟨S_, .i32⟩
  | 38 => ⟨S3300000, .i32⟩
  | 39 => ⟨S3300000, .i1⟩
  | 40 => ⟨S_, .i32⟩
  | 41 => ⟨S3300000, .i32⟩
  | 42 => ⟨S3300000, .i32⟩
  | 43 => ⟨S3300000, .i32⟩
  | 44 => ⟨S3300000x1, .i32⟩
  | 45 => ⟨S3300000, .f32⟩
  | 46 => ⟨S3300000, .f32⟩
  | 47 => ⟨S_, .i32⟩
  | 48 => ⟨S3300000, .i32⟩
  | 49 => ⟨S3300000, .i1⟩
  | 50 => ⟨S_, .i32⟩
  | 51 => ⟨S3300000, .i32⟩
  | 52 => ⟨S3300000, .i32⟩
  | 53 => ⟨S3300000, .i32⟩
  | 54 => ⟨S3300000x1, .i32⟩
  | 55 => ⟨S3300000x16, .f32⟩
  | 56 => ⟨S3300000x1, .f32⟩
  | 57 => ⟨S3300000x16, .f32⟩
  | 58 => ⟨S3300000x16, .f32⟩
  | 59 => ⟨S_, .f32⟩
  | 60 => ⟨S100000x16, .f32⟩
  | 61 => ⟨S3300000x1, .i32⟩
  | 62 => ⟨S100000x16, .f32⟩
  | 63 => ⟨S1x16, .f32⟩
  | 64 => ⟨S100000x16, .f32⟩
  | 65 => ⟨S100000x16, .f32⟩
  | 66 => ⟨S_, .f32⟩
  | 67 => ⟨S100000x16, .f32⟩
  | 68 => ⟨S100000x16, .f32⟩
  | 69 => ⟨S100000x7, .f32⟩
  | 70 => ⟨S1x3200000, .i32⟩
  | 71 => ⟨S3200000, .i32⟩
  | 72 => ⟨S1x3200000, .i32⟩
  | 73 => ⟨S3200000, .i32⟩
  | 74 => ⟨S100000, .i32⟩
  | 75 => ⟨S3300000, .i32⟩
  | 76 => ⟨S3300000, .i32⟩
  | 77 => ⟨S_, .f32⟩
  | 78 => ⟨S3300000, .f32⟩
  | 79 => ⟨S_, .f32⟩
  | 80 => ⟨S100000, .f32⟩
  | 81 => ⟨S3300000x1, .i32⟩
  | 82 => ⟨S100000, .f32⟩
  | 83 => ⟨S_, .f32⟩
  | 84 => ⟨S100000, .f32⟩
  | 85 => ⟨S100000, .i1⟩
  | 86 => ⟨S100000, .f32⟩
  | 87 => ⟨S_, .f32⟩
  | 88 => ⟨S_, .f32⟩
  | 89 => ⟨S100000, .f32⟩
  | 90 => ⟨S100000, .f32⟩
  | 91 => ⟨S_, .i32⟩
  | 92 => ⟨S3300000, .i32⟩
  | 93 => ⟨S3300000, .i1⟩
  | 94 => ⟨S_, .i32⟩
  | 95 => ⟨S3300000, .i32⟩
  | 96 => ⟨S3300000, .i32⟩
  | 97 => ⟨S3300000, .i32⟩
  | 98 => ⟨S3300000x1, .i32⟩
  | 99 => ⟨S3300000, .f32⟩
  | 100 => ⟨S_, .i32⟩
  | 101 => ⟨S3300000, .i32⟩
  | 102 => ⟨S3300000, .i1⟩
  | 103 => ⟨S_, .i32⟩
  | 104 => ⟨S3300000, .i32⟩
  | 105 => ⟨S3300000, .i32⟩
  | 106 => ⟨S3300000, .i32⟩
  | 107 => ⟨S3300000x1, .i32⟩
  | 108 => ⟨S3300000, .f32⟩
  | 109 => ⟨S3300000, .f32⟩
  | 110 => ⟨S_, .i32⟩
  | 111 => ⟨S3300000, .i32⟩
  | 112 => ⟨S3300000, .i1⟩
  | 113 => ⟨S_, .i32⟩
  | 114 => ⟨S3300000, .i32⟩
  | 115 => ⟨S3300000, .i32⟩
  | 116 => ⟨S3300000, .i32⟩
  | 117 => ⟨S3300000x1, .i32⟩
  | 118 => ⟨S3300000x7, .f32⟩
  | 119 => ⟨S3300000x1, .f32⟩
  | 120 => ⟨S3300000x7, .f32⟩
  | 121 => ⟨S3300000x7, .f32⟩
  | 122 => ⟨S_, .f32⟩
  | 123 => ⟨S100000x7, .f32⟩
  | 124 => ⟨S3300000x1, .i32⟩
  | 125 => ⟨S100000x7, .f32⟩
  | 126 => ⟨S1x7, .f32⟩
  | 127 => ⟨S100000x7, .f32⟩
  | _ => ⟨S100000x512, .f32⟩

abbrev hbmTy0_1 (i : Nat) : BufTy := match i % 128 with
  | 0 => ⟨S100000x7, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | .local _ .vmem, ⟨0, _⟩ => ⟨S5000x512, .f32⟩
  | .local _ .vmem, ⟨1, _⟩ => ⟨S5000x512, .f32⟩
  | .local _ .vmem, ⟨2, _⟩ => ⟨S512x16, .f32⟩
  | .local _ .vmem, ⟨3, _⟩ => ⟨S5000x16, .f32⟩
  | .local _ .vmem, ⟨4, _⟩ => ⟨S5000x16, .f32⟩
  | .local _ .vmem, ⟨5, _⟩ => ⟨S5000x16, .f32⟩
  | .local _ .vmem, ⟨6, _⟩ => ⟨S5000x16, .f32⟩
  | .local _ .vmem, ⟨7, _⟩ => ⟨S16x7, .f32⟩
  | .local _ .vmem, ⟨8, _⟩ => ⟨S5000x7, .f32⟩
  | .local _ .vmem, ⟨9, _⟩ => ⟨S5000x7, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_9 : Ref sig .tc := ⟨.hbm, 77, rfl⟩
abbrev main_v56 : Ref sig .tc := ⟨.hbm, 78, rfl⟩
abbrev main_cst_10 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_11 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_12 : Ref sig .tc := ⟨.hbm, 87, rfl⟩
abbrev main_call2_v0 : Ref sig .tc := ⟨.hbm, 88, rfl⟩
abbrev main_call2_v1 : Ref sig .tc := ⟨.hbm, 89, rfl⟩
abbrev main_v63 : Ref sig .tc := ⟨.hbm, 90, rfl⟩
abbrev main_c_13 : Ref sig .tc := ⟨.hbm, 91, rfl⟩
abbrev main_v64 : Ref sig .tc := ⟨.hbm, 92, rfl⟩
abbrev main_v65 : Ref sig .tc := ⟨.hbm, 93, rfl⟩
abbrev main_c_14 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_c_15 : Ref sig .tc := ⟨.hbm, 100, rfl⟩
abbrev main_v71 : Ref sig .tc := ⟨.hbm, 101, rfl⟩
abbrev main_v72 : Ref sig .tc := ⟨.hbm, 102, rfl⟩
abbrev main_c_16 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_c_17 : Ref sig .tc := ⟨.hbm, 110, rfl⟩
abbrev main_v79 : Ref sig .tc := ⟨.hbm, 111, rfl⟩
abbrev main_v80 : Ref sig .tc := ⟨.hbm, 112, rfl⟩
abbrev main_c_18 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_19 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x7 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x7 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S5000x512_S5000x512_0_0 : ∀ a, (![0, 0] : Fin 2 → Nat) a + S5000x512.size a ≤ S5000x512.size a
  h_S5000x512 : 0 < S5000x512.numel
  bitsLt_bf16_f32 : FTy.bits .bf16 < FTy.bits .f32
  inb_S512x16_S512x16_0_0 : ∀ a, (![0, 0] : Fin 2 → Nat) a + S512x16.size a ≤ S512x16.size a
  h_S512x16 : 0 < S512x16.numel
  inb_S5000x16_S5000x16_0_0 : ∀ a, (![0, 0] : Fin 2 → Nat) a + S5000x16.size a ≤ S5000x16.size a
  h_S5000x16 : 0 < S5000x16.numel
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  shapeCasts_S5000x16_S5000x16 : S5000x16.ShapeCasts S5000x16
  inb_S16x7_S16x7_0_0 : ∀ a, (![0, 0] : Fin 2 → Nat) a + S16x7.size a ≤ S16x7.size a
  h_S16x7 : 0 < S16x7.numel
  inb_S5000x7_S5000x7_0_0 : ∀ a, (![0, 0] : Fin 2 → Nat) a + S5000x7.size a ≤ S5000x7.size a
  h_S5000x7 : 0 < S5000x7.numel
  bcast_S3300000x1_S3300000x7_0_1 : S3300000x1.BroadcastsInDim S3300000x7 (![0, 1] : Fin 2 → Fin S3300000x7.rank)
  bcast_S_S100000x7 : S_.BroadcastsInDim S100000x7 (![] : Fin 0 → Fin S100000x7.rank)
  bcast_S7_S1x7_1 : S7.BroadcastsInDim S1x7 (![1] : Fin 1 → Fin S1x7.rank)
  bcast_S1x7_S100000x7_0_1 : S1x7.BroadcastsInDim S100000x7 (![0, 1] : Fin 2 → Fin S100000x7.rank)
  dot_S5000x512_S512x16_S5000x16_1_0_0_1_n_n_wf : DotDims.WF S5000x512 S512x16 S5000x16 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S5000x16_S16x7_S5000x7_1_0_0_1_n_n_wf : DotDims.WF S5000x16 S16x7 S5000x7 [1] [0] [0] [1] [] []
  gather_S100000x7_S3300000x1_S3300000x7_1_0_n_n_0_1_17_wf : GatherDims.WF S100000x7 S3300000x1 S3300000x7 [1] [0] [] [0] [] 1 ![1, 7]
  scatter_S100000x7_S3300000x1_S3300000x7_1_0_0_1_wf : ScatterDims.WF S100000x7 S3300000x1 S3300000x7 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S100000x512.size a
  hwx0_0 : ∀ i : grid0.Coords, EltTy.bits .f32 = 32 ∨ (Rect.block (s := S100000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x16.size a ≤ S100000x16.size a
  hwx0_2 : ∀ i : grid0.Coords, EltTy.bits .f32 = 32 ∨ (Rect.block (s := S100000x16) S5000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S100000x16.size a
  hwx1_0 : ∀ i : grid1.Coords, EltTy.bits .f32 = 32 ∨ (Rect.block (s := S100000x16) S5000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x7.size a ≤ S16x7.size a
  hwx1_1 : ∀ i : grid1.Coords, EltTy.bits .f32 = 32 ∨ (Rect.block (s := S16x7) S16x7.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x7.size a ≤ S100000x7.size a
  hwx1_2 : ∀ i : grid1.Coords, EltTy.bits .f32 = 32 ∨ (Rect.block (s := S100000x7) S5000x7.size (cc1_transform_2 i) (hinb1_2 i)).WholeWords (EltTy.packing .f32)

variable [Facts₀]

def dot_S5000x512_S512x16_S5000x16_1_0_0_1_n_n : DotDims S5000x512 S512x16 S5000x16 where
  lhsContracting := [1]
  rhsContracting := [0]
  lhsNonContracting := [0]
  rhsNonContracting := [1]
  lhsBatch := []
  rhsBatch := []
  wf := dot_S5000x512_S512x16_S5000x16_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S5000x16_S16x7_S5000x7_1_0_0_1_n_n : DotDims S5000x16 S16x7 S5000x7 where
  lhsContracting := [1]
  rhsContracting := [0]
  lhsNonContracting := [0]
  rhsNonContracting := [1]
  lhsBatch := []
  rhsBatch := []
  wf := dot_S5000x16_S16x7_S5000x7_1_0_0_1_n_n_wf
def gather_S100000x7_S3300000x1_S3300000x7_1_0_n_n_0_1_17 : GatherDims S100000x7 S3300000x1 S3300000x7 where
  offsetDims := [1]
  collapsedSliceDims := [0]
  operandBatchingDims := []
  startIndicesBatchingDims := []
  startIndexMap := [0]
  indexVectorDim := 1
  sliceSizes := ![1, 7]
  wf := gather_S100000x7_S3300000x1_S3300000x7_1_0_n_n_0_1_17_wf
def scatter_S100000x7_S3300000x1_S3300000x7_1_0_0_1 : ScatterDims S100000x7 S3300000x1 S3300000x7 where
  updateWindowDims := [1]
  insertedWindowDims := [0]
  scatterDimsToOperandDims := [0]
  indexVectorDim := 1
  wf := scatter_S100000x7_S3300000x1_S3300000x7_1_0_0_1_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S16x7.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S5000x7.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x7 : Shape := ⟨2, ![16, 7]⟩
abbrev S7 : Shape := ⟨1, ![7]⟩
abbrev S100000x16 : Shape := ⟨2, ![100000, 16]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S3300000x16 : Shape := ⟨2, ![3300000, 16]⟩
abbrev S1x16 : Shape := ⟨2, ![1, 16]⟩
abbrev S100000x7 : Shape := ⟨2, ![100000, 7]⟩
abbrev S3300000x7 : Shape := ⟨2, ![3300000, 7]⟩
abbrev S1x7 : Shape := ⟨2, ![1, 7]⟩

abbrev nBuf : Space → Nat
  | .hbm => 129
  | .vmem => 0
  | .smem => 0
  | _ => 0

abbrev hbmTy0_0 (i : Nat) : BufTy := match i % 128 with
  | 0 => ⟨S100000x512, .f32⟩
  | 1 => ⟨S2x3200000, .i32⟩
  | 2 => ⟨S512x16, .f32⟩
  | 3 => ⟨S16, .f32⟩
  | 4 => ⟨S16x7, .f32⟩
  | 5 => ⟨S7, .f32⟩
  | 6 => ⟨S100000x16, .f32⟩
  | 7 => ⟨S100000, .i32⟩
  | 8 => ⟨S1x3200000, .i32⟩
  | 9 => ⟨S3200000, .i32⟩
  | 10 => ⟨S3300000, .i32⟩
  | 11 => ⟨S1x3200000, .i32⟩
  | 12 => ⟨S3200000, .i32⟩
  | 13 => ⟨S3300000, .i32⟩
  | 14 => ⟨S_, .f32⟩
  | 15 => ⟨S3300000, .f32⟩
  | 16 => ⟨S_, .f32⟩
  | 17 => ⟨S100000, .f32⟩
  | 18 => ⟨S3300000x1, .i32⟩
  | 19 => ⟨S100000, .f32⟩
  | 20 => ⟨S_, .f32⟩
  | 21 => ⟨S100000, .f32⟩
  | 22 => ⟨S100000, .i1⟩
  | 23 => ⟨S100000, .f32⟩
  | 24 => ⟨S_, .f32⟩
  | 25 => ⟨S_, .f32⟩
  | 26 => ⟨S100000, .f32⟩
  | 27 => ⟨S100000, .f32⟩
  | 28 => ⟨S_, .i32⟩
  | 29 => ⟨S3300000, .i32⟩
  | 30 => ⟨S3300000, .i1⟩
  | 31 => ⟨S_, .i32⟩
  | 32 => ⟨S3300000, .i32⟩
  | 33 => ⟨S3300000, .i32⟩
  | 34 => ⟨S3300000, .i32⟩
  | 35 => ⟨S3300000x1, .i32⟩
  | 36 => ⟨S3300000, .f32⟩
  | 37 => ⟨S_, .i32⟩
  | 38 => ⟨S3300000, .i32⟩
  | 39 => ⟨S3300000, .i1⟩
  | 40 => ⟨S_, .i32⟩
  | 41 => ⟨S3300000, .i32⟩
  | 42 => ⟨S3300000, .i32⟩
  | 43 => ⟨S3300000, .i32⟩
  | 44 => ⟨S3300000x1, .i32⟩
  | 45 => ⟨S3300000, .f32⟩
  | 46 => ⟨S3300000, .f32⟩
  | 47 => ⟨S_, .i32⟩
  | 48 => ⟨S3300000, .i32⟩
  | 49 => ⟨S3300000, .i1⟩
  | 50 => ⟨S_, .i32⟩
  | 51 => ⟨S3300000, .i32⟩
  | 52 => ⟨S3300000, .i32⟩
  | 53 => ⟨S3300000, .i32⟩
  | 54 => ⟨S3300000x1, .i32⟩
  | 55 => ⟨S3300000x16, .f32⟩
  | 56 => ⟨S3300000x1, .f32⟩
  | 57 => ⟨S3300000x16, .f32⟩
  | 58 => ⟨S3300000x16, .f32⟩
  | 59 => ⟨S_, .f32⟩
  | 60 => ⟨S100000x16, .f32⟩
  | 61 => ⟨S3300000x1, .i32⟩
  | 62 => ⟨S100000x16, .f32⟩
  | 63 => ⟨S1x16, .f32⟩
  | 64 => ⟨S100000x16, .f32⟩
  | 65 => ⟨S100000x16, .f32⟩
  | 66 => ⟨S_, .f32⟩
  | 67 => ⟨S100000x16, .f32⟩
  | 68 => ⟨S100000x16, .f32⟩
  | 69 => ⟨S100000x7, .f32⟩
  | 70 => ⟨S100000, .i32⟩
  | 71 => ⟨S1x3200000, .i32⟩
  | 72 => ⟨S3200000, .i32⟩
  | 73 => ⟨S3300000, .i32⟩
  | 74 => ⟨S1x3200000, .i32⟩
  | 75 => ⟨S3200000, .i32⟩
  | 76 => ⟨S3300000, .i32⟩
  | 77 => ⟨S_, .f32⟩
  | 78 => ⟨S3300000, .f32⟩
  | 79 => ⟨S_, .f32⟩
  | 80 => ⟨S100000, .f32⟩
  | 81 => ⟨S3300000x1, .i32⟩
  | 82 => ⟨S100000, .f32⟩
  | 83 => ⟨S_, .f32⟩
  | 84 => ⟨S100000, .f32⟩
  | 85 => ⟨S100000, .i1⟩
  | 86 => ⟨S100000, .f32⟩
  | 87 => ⟨S_, .f32⟩
  | 88 => ⟨S_, .f32⟩
  | 89 => ⟨S100000, .f32⟩
  | 90 => ⟨S100000, .f32⟩
  | 91 => ⟨S_, .i32⟩
  | 92 => ⟨S3300000, .i32⟩
  | 93 => ⟨S3300000, .i1⟩
  | 94 => ⟨S_, .i32⟩
  | 95 => ⟨S3300000, .i32⟩
  | 96 => ⟨S3300000, .i32⟩
  | 97 => ⟨S3300000, .i32⟩
  | 98 => ⟨S3300000x1, .i32⟩
  | 99 => ⟨S3300000, .f32⟩
  | 100 => ⟨S_, .i32⟩
  | 101 => ⟨S3300000, .i32⟩
  | 102 => ⟨S3300000, .i1⟩
  | 103 => ⟨S_, .i32⟩
  | 104 => ⟨S3300000, .i32⟩
  | 105 => ⟨S3300000, .i32⟩
  | 106 => ⟨S3300000, .i32⟩
  | 107 => ⟨S3300000x1, .i32⟩
  | 108 => ⟨S3300000, .f32⟩
  | 109 => ⟨S3300000, .f32⟩
  | 110 => ⟨S_, .i32⟩
  | 111 => ⟨S3300000, .i32⟩
  | 112 => ⟨S3300000, .i1⟩
  | 113 => ⟨S_, .i32⟩
  | 114 => ⟨S3300000, .i32⟩
  | 115 => ⟨S3300000, .i32⟩
  | 116 => ⟨S3300000, .i32⟩
  | 117 => ⟨S3300000x1, .i32⟩
  | 118 => ⟨S3300000x7, .f32⟩
  | 119 => ⟨S3300000x1, .f32⟩
  | 120 => ⟨S3300000x7, .f32⟩
  | 121 => ⟨S3300000x7, .f32⟩
  | 122 => ⟨S_, .f32⟩
  | 123 => ⟨S100000x7, .f32⟩
  | 124 => ⟨S3300000x1, .i32⟩
  | 125 => ⟨S100000x7, .f32⟩
  | 126 => ⟨S1x7, .f32⟩
  | 127 => ⟨S100000x7, .f32⟩
  | _ => ⟨S100000x512, .f32⟩

abbrev hbmTy0_1 (i : Nat) : BufTy := match i % 128 with
  | 0 => ⟨S100000x7, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_9 : Ref sig .tc := ⟨.hbm, 77, rfl⟩
abbrev main_v56 : Ref sig .tc := ⟨.hbm, 78, rfl⟩
abbrev main_cst_10 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_11 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_12 : Ref sig .tc := ⟨.hbm, 87, rfl⟩
abbrev main_call2_v0 : Ref sig .tc := ⟨.hbm, 88, rfl⟩
abbrev main_call2_v1 : Ref sig .tc := ⟨.hbm, 89, rfl⟩
abbrev main_v63 : Ref sig .tc := ⟨.hbm, 90, rfl⟩
abbrev main_c_13 : Ref sig .tc := ⟨.hbm, 91, rfl⟩
abbrev main_v64 : Ref sig .tc := ⟨.hbm, 92, rfl⟩
abbrev main_v65 : Ref sig .tc := ⟨.hbm, 93, rfl⟩
abbrev main_c_14 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_c_15 : Ref sig .tc := ⟨.hbm, 100, rfl⟩
abbrev main_v71 : Ref sig .tc := ⟨.hbm, 101, rfl⟩
abbrev main_v72 : Ref sig .tc := ⟨.hbm, 102, rfl⟩
abbrev main_c_16 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_c_17 : Ref sig .tc := ⟨.hbm, 110, rfl⟩
abbrev main_v79 : Ref sig .tc := ⟨.hbm, 111, rfl⟩
abbrev main_v80 : Ref sig .tc := ⟨.hbm, 112, rfl⟩
abbrev main_c_18 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_19 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x7_0_1 : S3300000x1.BroadcastsInDim S3300000x7 (![0, 1] : Fin 2 → Fin S3300000x7.rank)
  bcast_S_S100000x7 : S_.BroadcastsInDim S100000x7 (![] : Fin 0 → Fin S100000x7.rank)
  bcast_S7_S1x7_1 : S7.BroadcastsInDim S1x7 (![1] : Fin 1 → Fin S1x7.rank)
  bcast_S1x7_S100000x7_0_1 : S1x7.BroadcastsInDim S100000x7 (![0, 1] : Fin 2 → Fin S100000x7.rank)
  dot_S100000x512_S512x16_S100000x16_1_0_0_1_n_n_wf : DotDims.WF S100000x512 S512x16 S100000x16 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x7_S100000x7_1_0_0_1_n_n_wf : DotDims.WF S100000x16 S16x7 S100000x7 [1] [0] [0] [1] [] []
  gather_S100000x7_S3300000x1_S3300000x7_1_0_n_n_0_1_17_wf : GatherDims.WF S100000x7 S3300000x1 S3300000x7 [1] [0] [] [0] [] 1 ![1, 7]
  scatter_S100000x7_S3300000x1_S3300000x7_1_0_0_1_wf : ScatterDims.WF S100000x7 S3300000x1 S3300000x7 [1] [0] [0] 1

variable [Facts₀]

def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x7_S100000x7_1_0_0_1_n_n : DotDims S100000x16 S16x7 S100000x7 where
  lhsContracting := [1]
  rhsContracting := [0]
  lhsNonContracting := [0]
  rhsNonContracting := [1]
  lhsBatch := []
  rhsBatch := []
  wf := dot_S100000x16_S16x7_S100000x7_1_0_0_1_n_n_wf
def gather_S100000x7_S3300000x1_S3300000x7_1_0_n_n_0_1_17 : GatherDims S100000x7 S3300000x1 S3300000x7 where
  offsetDims := [1]
  collapsedSliceDims := [0]
  operandBatchingDims := []
  startIndicesBatchingDims := []
  startIndexMap := [0]
  indexVectorDim := 1
  sliceSizes := ![1, 7]
  wf := gather_S100000x7_S3300000x1_S3300000x7_1_0_n_n_0_1_17_wf
def scatter_S100000x7_S3300000x1_S3300000x7_1_0_0_1 : ScatterDims S100000x7 S3300000x1 S3300000x7 where
  updateWindowDims := [1]
  insertedWindowDims := [0]
  scatterDimsToOperandDims := [0]
  indexVectorDim := 1
  wf := scatter_S100000x7_S3300000x1_S3300000x7_1_0_0_1_wf

class Facts : Prop extends Facts₀ where

variable [Facts]
-- ==== Proof.KernelRun.lean ====
/-
  The idealized kernel's run with its result named.

  @main is nine segments: the first pallas_call, four stretches of host operations (the first layer's aggregation and
  the relu), the second pallas_call, and three more stretches (the second layer's aggregation). The frame certificate
  follows the TensorCore's buffer contents from the launch memory through every segment boundary and ends with every
  unscoped buffer at the last boundary's contents. Here that final state is read at the result buffer as well as at
  the six arguments: every weakly fair execution terminates with the result at what the last boundary holds there and
  the arguments as launched.
-/
import proofs.«126849_j15204184228222_1_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the contents of the
    last segment boundary and the six argument arrays as launched. -/
theorem run : θ_run defs (onTc (τ := τ) (main (F := F))) ⟨m, fun _ => 0, ρ⟩ (fun r => ∀ c : Dev nD,
      r.2.mem ((c.tc : Thread nD τ).loc main_v94) = W9 m ρ c (Proc.devRef .tc main_v94)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v94 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.KernelIdeal.ValueRun

end
-- ==== Proof.Network.lean ====
/-
  The idealized kernel and the idealized reference compute the same two-layer graph convolution.

  Both programs are: a dense product `x · W₁`; the normalised neighbourhood sum of its rows — the in-degree of every
  node counted with a self loop, its inverse square root (0 where the degree is not positive), the product of the two
  end points' factors on every edge, the source rows gathered, scaled and added onto their destination rows — plus the
  bias `b₁`; a relu; a second dense product with `W₂`; and the same neighbourhood sum with `b₂`. They differ only in
  how the two dense products are computed: the kernel in 20 blocks of 5000 rows on the TensorCore, into a zero
  accumulator, after rounding the operands to bf16; the reference by one host `dot_general`. On the extended reals
  both are the matrix product. Every other operation of @main is the same host operation applied to the same operands
  in both programs (in the kernel the two slices of the edge list come before the node numbering and in the reference
  after it, which changes no value), so once the two products are identified the two results are one term.

  The theorem below is that statement for any float instance, with the two products as hypotheses.
-/
import proofs.«126849_j15204184228222_1_alg».proof.Proof.RefRun
import proofs.«126849_j15204184228222_1_alg».proof.Proof.KernelRun

noncomputable section

namespace Cert.Network

open Cert.KernelIdeal Cert.KernelIdeal.Gen Idealize.ShloMosaic Idealize.ShloMosaic.TcCoe Idealize.SL.Sem
open Idealize.ShloMosaic.StableHlo

/-- Reads a buffer back through a stretch of host operations, one operation at a time, wherever the reading stands in
    the term (also inside the operand list of a concatenation): at the operation's own result buffer its function of
    its operands, at any other buffer what was there before. -/
local macro "read_through" : tactic => `(tactic| repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide)))

section AnyFloats

variable {F : FTy → Type} [FloatOps F]
variable (m : (ℓ : Loc nD τ sig) → Buf (Elt F) ℓ) (ρ : Dev nD → PrngReg)
variable (m' : (ℓ : Loc Cert.ReferenceIdeal.nD Cert.ReferenceIdeal.τ Cert.ReferenceIdeal.sig) → Buf (Elt F) ℓ)

set_option maxHeartbeats 100000000 in
set_option maxRecDepth 16384 in
/-- If the first call leaves `x · W₁` in its output and the second call the product of the hidden activations with
    `W₂`, then what the kernel's last segment boundary holds at the result buffer is the reference's result term, for
    memories that agree on the six arguments. -/
theorem result_of_products (c : Dev nD)
    (hP1 : W1 m ρ c (Proc.devRef .tc main_v0)
      = Host.dotGeneral (DotDims.plain 100000 512 16) none (m ((c.tc : Thread nD τ).loc main_arg0)) (m ((c.tc : Thread nD τ).loc main_arg2)))
    (hP2 : W6 m ρ c (Proc.devRef .tc main_v48)
      = Host.dotGeneral (DotDims.plain 100000 16 7) none (W5 m ρ c (Proc.devRef .tc main_v47)) (W5 m ρ c (Proc.devRef .tc main_arg4)))
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4))
    (h5 : m' ((c.tc : Thread Cert.ReferenceIdeal.nD Cert.ReferenceIdeal.τ).loc Cert.ReferenceIdeal.main_arg5) = m ((c.tc : Thread nD τ).loc main_arg5)) :
    W9 m ρ c (Proc.devRef .tc main_v94) = Cert.ReferenceIdeal.ValueP.res_main_v94 m' c := by
  -- the second layer's neighbourhood sum, over the second call's output, the edge list and `b₂`
  show StableHlo.after hostOps2_2 (StableHlo.after hostOps2_1 (StableHlo.after hostOps2 (W6 m ρ c)))
    (Proc.devRef .tc main_v94) = _
  after_results_simp
  read_through
  rw [hP2, W6_of_ne m ρ c main_arg1 (by decide), W6_of_ne m ρ c main_arg5 (by decide)]
  -- the first layer's neighbourhood sum and the relu, over the first call's output, the edge list and `b₁`
  simp only [W5, W4, W3, W2]
  after_results_simp
  read_through
  rw [hP1, W1_of_ne m ρ c main_arg1 (by decide), W1_of_ne m ρ c main_arg3 (by decide),
    W1_of_ne m ρ c main_arg4 (by decide), W1_of_ne m ρ c main_arg5 (by decide)]
  -- the reference's term, its arguments read at the kernel's memory
  unfold Cert.ReferenceIdeal.ValueP.res_main_v94
  rw [h0, h1, h2, h3, h4, h5]
  rfl

end AnyFloats

end Cert.Network

end
-- ==== Proof.LibPlainMatmul.lean ====
/-
  A plain matrix product `[M, K] · [K, N]` on the extended reals, accumulated into the zero matrix, read at the entry
  `(p, q)`: the sum over `k : Fin K` of `l (p, k) · r (k, q)`.

  The library states a `tpu.matmul` at an output index as a sum over the contraction shape's index set, with the
  operands read at `lhsIdx` / `rhsIdx`; for the dimension numbers `⟨[1], [0], [0], [1], [], []⟩` that index set is
  one axis of extent `K`, the left index is `(p, k)` and the right index is `(k, q)`. The statement takes any
  dimension record equal to `DotDims.plain M K N` (a record is determined by its six lists, so a printed one with these
  lists is equal to it by `rfl`).
-/
import Idealize.ShloMosaic.PureOps.Ideal.Laws
import Idealize.ShloMosaic.Lib.ValueIdx

noncomputable section

open scoped BigOperators

namespace Cert.LibPlainMatmul

open Idealize.ShloMosaic Idealize.ShloMosaic.ValueIdx

/-- The left operand's index of the plain product at output `(p, q)` and contraction coordinate `k` is `(p, k)`. -/
theorem plain_lhsIdx {M K N : ℕ} (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl (ix2 p q) _).trans
        (contrEquiv1_symm_val (DotDims.plain M K N) K rfl rfl k))

/-- The right operand's index there is `(k, q)`. -/
theorem plain_rhsIdx {M K N : ℕ} (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ =>
      exact ((DotDims.plain M K N).rhsIdx_val_of_single rfl (ix2 p q) _).trans
        (contrEquiv1_symm_val (DotDims.plain M K N) K rfl rfl k)
    | ⟨1, _⟩ => rfl)

/-- A plain `[M, K] · [K, N]` product into the zero accumulator, at `(p, q)`, is `∑ k, l (p, k) · r (k, q)`. -/
theorem matmul_plain_zero_apply {M K N : ℕ} {φ₁ φ₂ : FTy}
    (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (p : Fin M) (q : Fin N) :
    FloatOps.matmul D prec l r (constant ⟨2, ![M, N]⟩ .f32 0x00000000#32) (ix2 p q)
      = ∑ k : Fin K, l (ix2 p k) * r (ix2 k q) := by
  subst hD
  rw [Ideal.matmul_constant_zero_apply, ← Equiv.sum_comp (contrEquiv1 (DotDims.plain M K N) K rfl rfl).symm]
  refine Finset.sum_congr rfl fun k _ => ?_
  rw [plain_lhsIdx, plain_rhsIdx]

end Cert.LibPlainMatmul

end
-- ==== Proof.LibPlainDot.lean ====
/-
  A plain matrix product `[M, K] · [K, N]` computed on the host, on the extended reals, read at the entry `(p, q)`:
  the sum over `k : Fin K` of `l (p, k) · r (k, q)`.

  The library states a host `dot_general` at an output index as a sum over the contraction shape's index set, with
  the operands read at `lhsIdx` / `rhsIdx`; for the dimension numbers `⟨[1], [0], [0], [1], [], []⟩` that index set is
  one axis of extent `K`, the left index is `(p, k)` and the right index is `(k, q)` (the two index facts are those of
  the product accumulated into zero, `Cert.LibPlainMatmul`). The statement takes any dimension record equal to
  `DotDims.plain M K N` (a record is determined by its six lists, so a printed one with these lists is equal to it by
  `rfl`).
-/
import proofs.«126849_j15204184228222_1_alg».proof.Proof.LibPlainMatmul
import Idealize.ShloMosaic.PureOps.Ideal.Laws
import Idealize.ShloMosaic.Lib.ValueIdx

noncomputable section

open scoped BigOperators

namespace Cert.LibPlainDot

open Idealize.ShloMosaic Idealize.ShloMosaic.ValueIdx Cert.LibPlainMatmul

/-- A plain `[M, K] · [K, N]` product on the host, at `(p, q)`, is `∑ k, l (p, k) · r (k, q)`. -/
theorem dot_plain_apply {M K N : ℕ} {φ₁ φ₂ : FTy}
    (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (p : Fin M) (q : Fin N) :
    Host.dotGeneral D prec l r (ix2 p q) = ∑ k : Fin K, l (ix2 p k) * r (ix2 k q) := by
  subst hD
  simp only [Host.dotGeneral]
  rw [Ideal.dotGeneral_apply, ← Equiv.sum_comp (contrEquiv1 (DotDims.plain M K N) K rfl rfl).symm]
  refine Finset.sum_congr rfl fun k _ => ?_
  rw [plain_lhsIdx, plain_rhsIdx]

end Cert.LibPlainDot

end
-- ==== Proof.Dense16.lean ====
/-
  The first layer's dense product, read off the first pallas_call of the idealized kernel.

  The call walks the 100000 rows of `x` in 20 blocks of 5000 rows. At block `t` its body loads rows
  `5000·t … 5000·t + 4999` of `x` and the whole of `W₁`, rounds both to bf16 — on the extended reals a change of
  float format is the identity — and multiplies them into a zero accumulator, so the block it writes back holds
  `∑ₖ x[5000·t + p, k] · W₁[k, q]` at `(p, q)`. That is row `5000·t + p` of the whole product `x · W₁`: a row of a
  matrix product depends on that row of the left factor only. The 20 blocks tile the 100000 × 16 output, so after
  the call the output array IS `x · W₁`, which is what the host's `dot_general` computes in one go.

  Everything is stated at the contents `V` the call finds when it is entered, whatever they are.
-/
import proofs.«126849_j15204184228222_1_alg».proof.Proof.Gen.KernelIdeal.Frame
import proofs.«126849_j15204184228222_1_alg».proof.Proof.LibPlainMatmul
import proofs.«126849_j15204184228222_1_alg».proof.Proof.LibPlainDot
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Dense16

open Cert.KernelIdeal Cert.KernelIdeal.Gen Idealize.ShloMosaic Idealize.ShloMosaic.TcCoe Idealize.SL.Sem
open Idealize.ShloMosaic.ValueIdx
open Idealize.ShloMosaic.Pipeline (Dat)

/-- The whole product `X · W` of a 100000 × 512 by a 512 × 16 matrix, as the host computes it. -/
abbrev product (X : FVec Ideal S100000x512 .f32) (W : FVec Ideal S512x16 .f32) : FVec Ideal S100000x16 .f32 :=
  Host.dotGeneral (F := Ideal) (DotDims.plain 100000 512 16) none X W

/-- One block of the body's result at `(p, q)`: the sum over `k` of the loaded rows' entry `(p, k)` times the loaded
    weights' entry `(k, q)` — rounding to bf16 changes nothing here and the accumulator starts at zero. -/
theorem block_apply (x0 : Vec Ideal S5000x512 .f32) (x1 : Vec Ideal S512x16 .f32) (p : Fin 5000) (q : Fin 16) :
    k0_pay1 (F := Ideal) x0 x1 (ix2 p q) = ∑ k : Fin 512, x0 (ix2 p k) * x1 (ix2 k q) := by
  unfold k0_pay1
  exact Cert.LibPlainMatmul.matmul_plain_zero_apply _ rfl none _ _ p q

/-- A block of rows of a product is the product of that block of rows: if `x0` holds rows `r₀ …` of `X` and `x1` is
    `W`, the body's result at `y` is the whole product at the index `r₀` rows further down. -/
theorem block_of_product (X : FVec Ideal S100000x512 .f32) (W : FVec Ideal S512x16 .f32)
    (x0 : Vec Ideal S5000x512 .f32) (x1 : Vec Ideal S512x16 .f32) (r₀ : ℕ)
    (h0 : ∀ (p : Fin 5000) (k : Fin 512) (i : S100000x512.Idx), (i 0).val = r₀ + p.val → (i 1).val = k.val → x0 (ix2 p k) = X i)
    (h1 : ∀ (k : Fin 512) (q : Fin 16), x1 (ix2 k q) = W (ix2 k q))
    (y : S5000x16.Idx) (i : S100000x16.Idx) (hi0 : (i 0).val = r₀ + (y 0).val) (hi1 : (i 1).val = (y 1).val) :
    k0_pay1 (F := Ideal) x0 x1 y = product X W i := by
  obtain ⟨p, q, rfl⟩ : ∃ (p : Fin 5000) (q : Fin 16), y = ix2 p q := ⟨y 0, y 1, eq_ix2 y⟩
  obtain ⟨r, q', rfl⟩ : ∃ (r : Fin 100000) (q' : Fin 16), i = ix2 r q' := ⟨i 0, i 1, eq_ix2 i⟩
  have hr : r.val = r₀ + p.val := hi0
  obtain rfl : q' = q := Fin.ext hi1
  rw [block_apply, product, Cert.LibPlainDot.dot_plain_apply _ rfl]
  refine Finset.sum_congr rfl fun k _ => ?_
  rw [h0 p k (ix2 r k) hr rfl, h1]

variable (V : (c : Dev nD) → (b : Ref sig .tc) → Buf (Elt Ideal) ((c : Thread nD τ).loc b))

theorem hz : (![0, 0] : Fin 2 → Nat) = fun _ => 0 := funext fun a => by fin_cases a <;> rfl

/-- The three index maps over the 20 points: the rows' and the output's block index is the point itself along the
    rows and 0 along the columns; the weights' block never moves. -/
theorem index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 ∧ t.val < 20 :=
  (by decide +kernel : ∀ t : Fin grid0.N, _)

/-- Every one of the 20 row blocks is some point's. -/
theorem index_onto : ∀ b : Fin 20, ∃ t : Fin cfg0.N, win0_2.index t (0 : Fin 2) = b.val ∧ win0_2.index t (1 : Fin 2) = 0 :=
  (by decide +kernel : ∀ b : Fin 20, ∃ t : Fin grid0.N, win0_2.index t (0 : Fin 2) = b.val ∧ win0_2.index t (1 : Fin 2) = 0)

/-- The rows the body loads at point `t` are rows `5000·t …` of the array the call was entered with. -/
theorem rows_block (c : Dev nD) (t : Fin cfg0.N) (p : Fin 5000) (k : Fin 512) (i : S100000x512.Idx)
    (hi0 : (i 0).val = 5000 * t.val + p.val) (hi1 : (i 1).val = k.val) :
    iblk0 V c 0 t (ix2 p k) = V c main_arg0 i := by
  obtain ⟨e0, e1, -, -, -, -, -⟩ := index_maps t
  show V c main_arg0 (((cfg0.win 0).blk t).view.emb (ix2 p k)) = V c main_arg0 i
  refine congrArg (V c main_arg0) (funext fun a => Fin.ext ?_)
  match a with
  | ⟨0, _⟩ => show win0_0.index t (0 : Fin 2) * 5000 + 1 * p.val = (i 0).val; omega
  | ⟨1, _⟩ => show win0_0.index t (1 : Fin 2) * 512 + 1 * k.val = (i 1).val; omega

/-- The weights the body loads at any point are the whole weight array. -/
theorem weights_block (c : Dev nD) (t : Fin cfg0.N) (k : Fin 512) (q : Fin 16) :
    iblk0 V c 1 t (ix2 k q) = V c main_arg2 (ix2 k q) := by
  obtain ⟨-, -, e2, e3, -, -, -⟩ := index_maps t
  show V c main_arg2 (((cfg0.win 1).blk t).view.emb (ix2 k q)) = V c main_arg2 (ix2 k q)
  refine congrArg (V c main_arg2) (funext fun a => Fin.ext ?_)
  match a with
  | ⟨0, _⟩ => show win0_1.index t (0 : Fin 2) * 512 + 1 * k.val = k.val; omega
  | ⟨1, _⟩ => show win0_1.index t (1 : Fin 2) * 16 + 1 * q.val = q.val; omega

/-- What point `t` writes back is block `t` of the whole product of the entry arrays. -/
theorem flushed_eq (c : Dev nD) (t : Fin cfg0.N) :
    (dat0 V c).flushed 2 t = ((cfg0.win 2).blk t).view.read (Elt Ideal) (product (V c main_arg0) (V c main_arg2)) := by
  show (cfg0.win 2).cut (grid0.coords t) ((dat0 V c).after 2 t) = _
  rw [after0_2]
  unfold out0_2
  rw [View.canon_unit_zero hz]
  simp only [View.ld_unit_zero (S := S5000x512) hz, View.ld_unit_zero (S := S512x16) hz]
  obtain ⟨-, -, -, -, e4, e5, -⟩ := index_maps t
  funext j
  show k0_pay1 (F := Ideal) (iblk0 V c 0 t) (iblk0 V c 1 t) j
    = product (V c main_arg0) (V c main_arg2) (((cfg0.win 2).blk t).view.emb j)
  refine block_of_product (V c main_arg0) (V c main_arg2) (iblk0 V c 0 t) (iblk0 V c 1 t) (5000 * t.val)
    (fun p k i h0 h1 => rows_block V c t p k i h0 h1) (fun k q => weights_block V c t k q) j _ ?_ ?_
  · show win0_2.index t (0 : Fin 2) * 5000 + 1 * (j 0).val = 5000 * t.val + (j 0).val; omega
  · show win0_2.index t (1 : Fin 2) * 16 + 1 * (j 1).val = (j 1).val; omega

/-- An index of the output array is in point `t`'s block iff each coordinate is in the block's range on its axis. -/
theorem mem_blk (t : Fin cfg0.N) (i : S100000x16.Idx) :
    i ∈ ((cfg0.win 2).blk t).view.set ↔ ∀ a : Fin 2, win0_2.index t a * S5000x16.size a ≤ (i a).val ∧ (i a).val < win0_2.index t a * S5000x16.size a + S5000x16.size a := by
  show i ∈ ((View.whole main_v0).slice (win0_2.rect t)).set ↔ _
  rw [View.set_slice_whole, Rect.mem_set_unit]
  exact Iff.rfl

/-- Every index of the output lies in the block of the point its row falls in: row `r` in block `r / 5000`. -/
theorem covered (i : S100000x16.Idx) :
    ∃ t : Fin cfg0.N, (cfg0.win 2).flush t = true ∧ i ∈ ((cfg0.win 2).blk t).view.set := by
  have hi0 : (i 0).val < 100000 := (i 0).isLt
  have hi1 : (i 1).val < 16 := (i 1).isLt
  obtain ⟨t, q0, q1⟩ := index_onto ⟨(i 0).val / 5000, by omega⟩
  have q0' : win0_2.index t (0 : Fin 2) = (i 0).val / 5000 := q0
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 16 ≤ (i 1).val ∧ (i 1).val < win0_2.index t (1 : Fin 2) * 16 + 16; omega

/-- After the first call its output array is the whole product of the arrays it was entered with. -/
theorem array_eq (c : Dev nD) :
    (dat0 V c).arrAt 2 cfg0.N = product (V c main_arg0) (V c main_arg2) :=
  (dat0 V c).arrAt_eq_of_cover 2 (product (V c main_arg0) (V c main_arg2)) (fun t _ => flushed_eq V c t) covered

end Cert.KernelIdeal.Dense16

end
-- ==== Proof.Dense7.lean ====
/-
  The second layer's dense product, read off the second pallas_call of the idealized kernel.

  The call walks the 100000 rows of the hidden activations `h` in 20 blocks of 5000 rows. At block `t` its body loads
  rows `5000·t … 5000·t + 4999` of `h` (through a reshape to the same shape, which moves nothing) and the whole of
  `W₂`, rounds both to bf16 — the identity on the extended reals — and multiplies them into a zero accumulator: the
  block it writes back holds `∑ₖ h[5000·t + p, k] · W₂[k, q]` at `(p, q)`, which is row `5000·t + p` of the whole
  product `h · W₂`. The 20 blocks tile the 100000 × 7 output, so after the call the output array IS `h · W₂`, the
  host's `dot_general` of the two arrays.

  Everything is stated at the contents `V` the call finds when it is entered, whatever they are.
-/
import proofs.«126849_j15204184228222_1_alg».proof.Proof.Gen.KernelIdeal.Frame
import proofs.«126849_j15204184228222_1_alg».proof.Proof.LibPlainMatmul
import proofs.«126849_j15204184228222_1_alg».proof.Proof.LibPlainDot
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Dense7

open Cert.KernelIdeal Cert.KernelIdeal.Gen Idealize.ShloMosaic Idealize.ShloMosaic.TcCoe Idealize.SL.Sem
open Idealize.ShloMosaic.ValueIdx
open Idealize.ShloMosaic.Pipeline (Dat)

/-- The whole product `X · W` of a 100000 × 16 by a 16 × 7 matrix, as the host computes it. -/
abbrev product (X : FVec Ideal S100000x16 .f32) (W : FVec Ideal S16x7 .f32) : FVec Ideal S100000x7 .f32 :=
  Host.dotGeneral (F := Ideal) (DotDims.plain 100000 16 7) none X W

/-- One block of the body's result at `(p, q)`: the sum over `k` of the loaded rows' entry `(p, k)` times the loaded
    weights' entry `(k, q)` — rounding to bf16 changes nothing here and the accumulator starts at zero. -/
theorem block_apply (x0 : Vec Ideal S5000x16 .f32) (x1 : Vec Ideal S16x7 .f32) (p : Fin 5000) (q : Fin 7) :
    k1_pay1 (F := Ideal) x0 x1 (ix2 p q) = ∑ k : Fin 16, x0 (ix2 p k) * x1 (ix2 k q) := by
  unfold k1_pay1
  refine (Cert.LibPlainMatmul.matmul_plain_zero_apply _ rfl none _ _ p q).trans ?_
  refine Finset.sum_congr rfl fun k _ => ?_
  show shapeCast S5000x16 x0 shapeCasts_S5000x16_S5000x16 (ix2 p k) * x1 (ix2 k q) = x0 (ix2 p k) * x1 (ix2 k q)
  rw [shapeCast_self]

/-- A block of rows of a product is the product of that block of rows: if `x0` holds rows `r₀ …` of `X` and `x1` is
    `W`, the body's result at `y` is the whole product at the index `r₀` rows further down. -/
theorem block_of_product (X : FVec Ideal S100000x16 .f32) (W : FVec Ideal S16x7 .f32)
    (x0 : Vec Ideal S5000x16 .f32) (x1 : Vec Ideal S16x7 .f32) (r₀ : ℕ)
    (h0 : ∀ (p : Fin 5000) (k : Fin 16) (i : S100000x16.Idx), (i 0).val = r₀ + p.val → (i 1).val = k.val → x0 (ix2 p k) = X i)
    (h1 : ∀ (k : Fin 16) (q : Fin 7), x1 (ix2 k q) = W (ix2 k q))
    (y : S5000x7.Idx) (i : S100000x7.Idx) (hi0 : (i 0).val = r₀ + (y 0).val) (hi1 : (i 1).val = (y 1).val) :
    k1_pay1 (F := Ideal) x0 x1 y = product X W i := by
  obtain ⟨p, q, rfl⟩ : ∃ (p : Fin 5000) (q : Fin 7), y = ix2 p q := ⟨y 0, y 1, eq_ix2 y⟩
  obtain ⟨r, q', rfl⟩ : ∃ (r : Fin 100000) (q' : Fin 7), i = ix2 r q' := ⟨i 0, i 1, eq_ix2 i⟩
  have hr : r.val = r₀ + p.val := hi0
  obtain rfl : q' = q := Fin.ext hi1
  rw [block_apply, product, Cert.LibPlainDot.dot_plain_apply _ rfl]
  refine Finset.sum_congr rfl fun k _ => ?_
  rw [h0 p k (ix2 r k) hr rfl, h1]

variable (V : (c : Dev nD) → (b : Ref sig .tc) → Buf (Elt Ideal) ((c : Thread nD τ).loc b))

theorem hz : (![0, 0] : Fin 2 → Nat) = fun _ => 0 := funext fun a => by fin_cases a <;> rfl

/-- The three index maps over the 20 points: the rows' and the output's block index is the point itself along the
    rows and 0 along the columns; the weights' block never moves. -/
theorem index_maps : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 ∧ t.val < 20 :=
  (by decide +kernel : ∀ t : Fin grid1.N, _)

/-- Every one of the 20 row blocks is some point's. -/
theorem index_onto : ∀ b : Fin 20, ∃ t : Fin cfg1.N, win1_2.index t (0 : Fin 2) = b.val ∧ win1_2.index t (1 : Fin 2) = 0 :=
  (by decide +kernel : ∀ b : Fin 20, ∃ t : Fin grid1.N, win1_2.index t (0 : Fin 2) = b.val ∧ win1_2.index t (1 : Fin 2) = 0)

/-- The rows the body loads at point `t` are rows `5000·t …` of the array the call was entered with. -/
theorem rows_block (c : Dev nD) (t : Fin cfg1.N) (p : Fin 5000) (k : Fin 16) (i : S100000x16.Idx)
    (hi0 : (i 0).val = 5000 * t.val + p.val) (hi1 : (i 1).val = k.val) :
    iblk1 V c 0 t (ix2 p k) = V c main_v47 i := by
  obtain ⟨e0, e1, -, -, -, -, -⟩ := index_maps t
  show V c main_v47 (((cfg1.win 0).blk t).view.emb (ix2 p k)) = V c main_v47 i
  refine congrArg (V c main_v47) (funext fun a => Fin.ext ?_)
  match a with
  | ⟨0, _⟩ => show win1_0.index t (0 : Fin 2) * 5000 + 1 * p.val = (i 0).val; omega
  | ⟨1, _⟩ => show win1_0.index t (1 : Fin 2) * 16 + 1 * k.val = (i 1).val; omega

/-- The weights the body loads at any point are the whole weight array. -/
theorem weights_block (c : Dev nD) (t : Fin cfg1.N) (k : Fin 16) (q : Fin 7) :
    iblk1 V c 1 t (ix2 k q) = V c main_arg4 (ix2 k q) := by
  obtain ⟨-, -, e2, e3, -, -, -⟩ := index_maps t
  show V c main_arg4 (((cfg1.win 1).blk t).view.emb (ix2 k q)) = V c main_arg4 (ix2 k q)
  refine congrArg (V c main_arg4) (funext fun a => Fin.ext ?_)
  match a with
  | ⟨0, _⟩ => show win1_1.index t (0 : Fin 2) * 16 + 1 * k.val = k.val; omega
  | ⟨1, _⟩ => show win1_1.index t (1 : Fin 2) * 7 + 1 * q.val = q.val; omega

/-- What point `t` writes back is block `t` of the whole product of the entry arrays. -/
theorem flushed_eq (c : Dev nD) (t : Fin cfg1.N) :
    (dat1 V c).flushed 2 t = ((cfg1.win 2).blk t).view.read (Elt Ideal) (product (V c main_v47) (V c main_arg4)) := by
  show (cfg1.win 2).cut (grid1.coords t) ((dat1 V c).after 2 t) = _
  rw [after1_2]
  unfold out1_2
  rw [View.canon_unit_zero hz]
  simp only [View.ld_unit_zero (S := S5000x16) hz, View.ld_unit_zero (S := S16x7) hz]
  obtain ⟨-, -, -, -, e4, e5, -⟩ := index_maps t
  funext j
  show k1_pay1 (F := Ideal) (iblk1 V c 0 t) (iblk1 V c 1 t) j
    = product (V c main_v47) (V c main_arg4) (((cfg1.win 2).blk t).view.emb j)
  refine block_of_product (V c main_v47) (V c main_arg4) (iblk1 V c 0 t) (iblk1 V c 1 t) (5000 * t.val)
    (fun p k i h0 h1 => rows_block V c t p k i h0 h1) (fun k q => weights_block V c t k q) j _ ?_ ?_
  · show win1_2.index t (0 : Fin 2) * 5000 + 1 * (j 0).val = 5000 * t.val + (j 0).val; omega
  · show win1_2.index t (1 : Fin 2) * 7 + 1 * (j 1).val = (j 1).val; omega

/-- An index of the output array is in point `t`'s block iff each coordinate is in the block's range on its axis. -/
theorem mem_blk (t : Fin cfg1.N) (i : S100000x7.Idx) :
    i ∈ ((cfg1.win 2).blk t).view.set ↔ ∀ a : Fin 2, win1_2.index t a * S5000x7.size a ≤ (i a).val ∧ (i a).val < win1_2.index t a * S5000x7.size a + S5000x7.size a := by
  show i ∈ ((View.whole main_v48).slice (win1_2.rect t)).set ↔ _
  rw [View.set_slice_whole, Rect.mem_set_unit]
  exact Iff.rfl

/-- Every index of the output lies in the block of the point its row falls in: row `r` in block `r / 5000`. -/
theorem covered (i : S100000x7.Idx) :
    ∃ t : Fin cfg1.N, (cfg1.win 2).flush t = true ∧ i ∈ ((cfg1.win 2).blk t).view.set := by
  have hi0 : (i 0).val < 100000 := (i 0).isLt
  have hi1 : (i 1).val < 7 := (i 1).isLt
  obtain ⟨t, q0, q1⟩ := index_onto ⟨(i 0).val / 5000, by omega⟩
  have q0' : win1_2.index t (0 : Fin 2) = (i 0).val / 5000 := q0
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 7 ≤ (i 1).val ∧ (i 1).val < win1_2.index t (1 : Fin 2) * 7 + 7; omega

/-- After the second call its output array is the whole product of the arrays it was entered with. -/
theorem array_eq (c : Dev nD) :
    (dat1 V c).arrAt 2 cfg1.N = product (V c main_v47) (V c main_arg4) :=
  (dat1 V c).arrAt_eq_of_cover 2 (product (V c main_v47) (V c main_arg4)) (fun t _ => flushed_eq V c t) covered

end Cert.KernelIdeal.Dense7

end
-- ==== Proof.Products.lean ====
/-
  The two dense products at the two calls' actual entry contents, on the extended reals.

  The first call is entered with the launch memory, so its output ends holding `x · W₁` of the argument arrays. The
  second call is entered after the first layer's host operations, so its output ends holding the product of whatever
  those left in the hidden-activation buffer with `W₂` as that boundary holds it.
-/
import proofs.«126849_j15204184228222_1_alg».proof.Proof.Dense16
import proofs.«126849_j15204184228222_1_alg».proof.Proof.Dense7
import Idealize.ShloMosaic.PureOps.Ideal

noncomputable section

namespace Cert.KernelIdeal.Products

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- After the first call its output holds `x · W₁` of the launch arrays. -/
theorem first_product (c : Dev nD) :
    W1 m ρ c (Proc.devRef .tc main_v0)
      = Host.dotGeneral (F := Ideal) (φ₁ := .f32) (φ₂ := .f32) (DotDims.plain 100000 512 16) none
          (m ((c.tc : Thread nD τ).loc main_arg0)) (m ((c.tc : Thread nD τ).loc main_arg2)) :=
  (W1_arr m ρ c 2).trans (Cert.KernelIdeal.Dense16.array_eq (V0 m ρ) c)

/-- After the second call its output holds the product of the hidden activations, as the call found them, with `W₂`. -/
theorem second_product (c : Dev nD) :
    W6 m ρ c (Proc.devRef .tc main_v48)
      = Host.dotGeneral (F := Ideal) (φ₁ := .f32) (φ₂ := .f32) (DotDims.plain 100000 16 7) none
          (W5 m ρ c (Proc.devRef .tc main_v47)) (W5 m ρ c (Proc.devRef .tc main_arg4)) :=
  (W6_arr m ρ c 2).trans (Cert.KernelIdeal.Dense7.array_eq (V5 m ρ) c)

end Cert.KernelIdeal.Products

end
-- ==== Proof.lean ====
/-
  A two-layer graph convolution on 100000 nodes and 3200000 edges: the Pallas kernel, its idealization and the jnp
  reference.

  Each layer is `out[d] = ∑_{s → d} dinv[s] · dinv[d] · (h · W)[s] + b` over the edge list with a self loop added at
  every node, `dinv = 1/√deg` where the in-degree is positive and 0 elsewhere; a relu sits between the layers. The
  kernel computes the two dense products `x · W₁` (100000 × 512 by 512 × 16) and `h · W₂` (100000 × 16 by 16 × 7) in
  pallas_calls over 20 blocks of 5000 rows, with bf16 operands and an f32 accumulator started at zero, and everything
  else on the host, operation for operation as the reference does; the reference computes the two products by host
  `dot_general`s.

  On the extended reals a change of float format is the identity, a block of rows of a matrix product is the product
  of that block of rows with the whole right factor, and `0 + s = s`: so each call leaves exactly the host's product
  in its output array (Dense16, Dense7), and the two programs' results are then one term of the six arguments
  (Network). Nothing in this needs the inputs to be finite: no sum is re-associated across an infinity, no factor is
  moved through a sum. The idealization rewrote no operation, so `preserves` has nothing to state. The three frames are
  the generated frame certificates of the two kernel programs and the reference's run with its result dropped.
-/
import proofs.«126849_j15204184228222_1_alg».proof.Defs
import proofs.«126849_j15204184228222_1_alg».proof.Proof.Gen.Kernel
import proofs.«126849_j15204184228222_1_alg».proof.Proof.Gen.Kernel.Frame
import proofs.«126849_j15204184228222_1_alg».proof.Proof.Gen.KernelIdeal
import proofs.«126849_j15204184228222_1_alg».proof.Proof.Gen.KernelIdeal.Frame
import proofs.«126849_j15204184228222_1_alg».proof.Proof.Gen.ReferenceIdeal
import proofs.«126849_j15204184228222_1_alg».proof.Proof.Gen.Pre_finite_inputs
import proofs.«126849_j15204184228222_1_alg».proof.Proof.RefRun
import proofs.«126849_j15204184228222_1_alg».proof.Proof.KernelRun
import proofs.«126849_j15204184228222_1_alg».proof.Proof.Network
import proofs.«126849_j15204184228222_1_alg».proof.Proof.Products
import Idealize.ShloMosaic.Adequacy
import Idealize.ShloMosaic.Init

noncomputable section

namespace Cert.Proof

open Idealize.ShloMosaic Idealize.ShloMosaic.TcCoe Idealize.SL.Sem

/-- The kernel as printed runs to the end with its arguments unchanged. -/
theorem frame_kernel : Cert.frame_Kernel := fun m ρ _ => Cert.Kernel.Gen.frame m ρ

/-- So does its idealization. -/
theorem frame_ideal : Cert.frame_KernelIdeal := fun m ρ _ => Cert.KernelIdeal.Gen.frame m ρ

/-- The reference is a straight line of host operations: its run, the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- The idealization is the kernel's own text read on the extended reals: no rewrite to account for. -/
theorem preserves : Cert.preserves_Kernel_KernelIdeal := trivial

/-- From memories that agree on the six arguments both idealized programs end with the same result: the kernel's at
    what its last segment boundary holds, the reference's at its term of the arguments, and these are equal. -/
theorem algebraic : Cert.algebraic_KernelIdeal_ReferenceIdeal := by
  intro m ρ m' ρ' _ hagree
  refine ⟨fun c => Cert.KernelIdeal.Gen.W9 m ρ c (Proc.devRef .tc Cert.KernelIdeal.main_v94),
    Cert.KernelIdeal.ValueRun.run (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨a0, a1, a2, a3, a4, a5⟩ := hagree c
  exact (Cert.Network.result_of_products m ρ m' c (Cert.KernelIdeal.Products.first_product m ρ c)
    (Cert.KernelIdeal.Products.second_product m ρ c) a0 a1 a2 a3 a4 a5).symm

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
